-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x128 .f32) (main_arg1 : FVec F S16384x128 .f32) (main_arg2 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x128 : Shape := ⟨2, ![16384, 128]⟩
abbrev S128x128 : Shape := ⟨2, ![128, 128]⟩
abbrev S16384x16384 : Shape := ⟨2, ![16384, 16384]⟩
abbrev S1024x128 : Shape := ⟨2, ![1024, 128]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S16384x16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S1024x1024, .f32⟩
  | .local _ .vmem, ⟨6, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x128_S128x128_S1024x128_1_0_0_1_n_n_wf : DotDims.WF S1024x128 S128x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x16384.size a
  hwx0_3 : ∀ i : grid0.Coords, EltTy.bits .f32 = 32 ∨ (Rect.block (s := S16384x16384) S1024x1024.size (cc0_transform_3 i) (hinb0_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S16384x16384 : Shape := ⟨2, ![16384, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S16384x128, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S_, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S128x128_S128x128_1_0 : S128x128.Transposes [1, 0] S128x128
  bcast_S_S16384x16384 : S_.BroadcastsInDim S16384x16384 (![] : Fin 0 → Fin S16384x16384.rank)
  dot_S16384x128_S128x128_S16384x128_1_0_0_1_n_n_wf : DotDims.WF S16384x128 S128x128 S16384x128 [1] [0] [0] [1] [] []
  dot_S16384x128_S16384x128_S16384x16384_1_1_0_0_n_n_wf : DotDims.WF S16384x128 S16384x128 S16384x16384 [1] [1] [0] [0] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S16384x128_S16384x16384_1_1_0_0_n_n : DotDims S16384x128 S16384x128 S16384x16384 where
  lhsContracting := [1]
  rhsContracting := [1]
  lhsNonContracting := [0]
  rhsNonContracting := [0]
  lhsBatch := []
  rhsBatch := []
  wf := dot_S16384x128_S16384x128_S16384x16384_1_1_0_0_n_n_wf

class Facts : Prop extends Facts₀ where

variable [Facts]
-- ==== Proof.Score.lean ====
/-
  The bilinear score, as one function of three arrays.

  For x of shape [a, 128], y of shape [b, 128] and W of shape [128, 128] the score of the pair (p, q) is the logistic
  function of the bilinear form of row p of x and row q of y through W:

      score (p, q) = σ( Σ_d ( Σ_e x[p, e] · W[d, e] ) · y[q, d] ),     σ s = 1 / (1 + exp (−s)),

  over the extended reals: first the row p of x is taken through W (the product of x with the transpose of W), then
  the result is paired with row q of y. The sums are written in exactly this order and grouping, so nothing here needs
  the entries to be finite. The score at (p, q) depends on x only through its row p and on y only through its row q
  (`scoreAt_rows`): this is what lets a block of rows of x and a block of rows of y determine a block of scores.
-/
import Idealize.ShloMosaic.PureOps.Ideal
import Idealize.ShloMosaic.Lib.ValueIdx

noncomputable section

open scoped BigOperators

namespace Cert.Bilinear

open Idealize.ShloMosaic Idealize.ShloMosaic.ValueIdx

/-- The score of row `p` of `x` against row `q` of `y`: the logistic function of `Σ_d (Σ_e x[p,e] · W[d,e]) · y[q,d]`. -/
def scoreAt {a b : Nat} (x : (⟨2, ![a, 128]⟩ : Shape).Idx → EReal) (y : (⟨2, ![b, 128]⟩ : Shape).Idx → EReal)
    (W : (⟨2, ![128, 128]⟩ : Shape).Idx → EReal) (p : Fin a) (q : Fin b) : EReal :=
  Ideal.logistic (∑ d : Fin 128, (∑ e : Fin 128, x (ix2 p e) * W (ix2 d e)) * y (ix2 q d))

/-- The array of all scores, [a, b]: entry `i` is the score of row `i 0` of `x` against row `i 1` of `y`. -/
def score {a b : Nat} (x : (⟨2, ![a, 128]⟩ : Shape).Idx → EReal) (y : (⟨2, ![b, 128]⟩ : Shape).Idx → EReal)
    (W : (⟨2, ![128, 128]⟩ : Shape).Idx → EReal) : (⟨2, ![a, b]⟩ : Shape).Idx → EReal :=
  fun i => scoreAt x y W (i 0) (i 1)

theorem score_ix2 {a b : Nat} (x : (⟨2, ![a, 128]⟩ : Shape).Idx → EReal) (y : (⟨2, ![b, 128]⟩ : Shape).Idx → EReal)
    (W : (⟨2, ![128, 128]⟩ : Shape).Idx → EReal) (p : Fin a) (q : Fin b) : score x y W (ix2 p q) = scoreAt x y W p q := rfl

/-- The score at (p, q) reads only row `p` of `x`, row `q` of `y` and the entries of `W`: arrays that agree with `x` on
    that row and with `y` on that row (possibly rows of other numbers, of arrays of other heights), with a `W` that
    agrees entry by entry, give the same score. -/
theorem scoreAt_rows {a b a' b' : Nat} (x : (⟨2, ![a, 128]⟩ : Shape).Idx → EReal) (y : (⟨2, ![b, 128]⟩ : Shape).Idx → EReal)
    (x' : (⟨2, ![a', 128]⟩ : Shape).Idx → EReal) (y' : (⟨2, ![b', 128]⟩ : Shape).Idx → EReal)
    (W W' : (⟨2, ![128, 128]⟩ : Shape).Idx → EReal) (p : Fin a) (q : Fin b) (p' : Fin a') (q' : Fin b')
    (hx : ∀ e : Fin 128, x (ix2 p e) = x' (ix2 p' e)) (hy : ∀ d : Fin 128, y (ix2 q d) = y' (ix2 q' d))
    (hW : ∀ d e : Fin 128, W (ix2 d e) = W' (ix2 d e)) :
    scoreAt x y W p q = scoreAt x' y' W' p' q' := by
  unfold scoreAt
  refine congrArg Ideal.logistic (Finset.sum_congr rfl fun d _ => ?_)
  rw [hy d]
  refine congrArg (· * y' (ix2 q' d)) (Finset.sum_congr rfl fun e _ => ?_)
  rw [hx e, hW d e]

end Cert.Bilinear

end
-- ==== Proof.RefScore.lean ====
/-
  The reference computes the bilinear score.

  The reference transposes W, multiplies x by it (entry (n, d) of the product is Σ_e x[n, e] · W[d, e]), contracts the
  product with y along the feature axis (entry (n, m) is Σ_d (Σ_e x[n, e] · W[d, e]) · y[m, d]) and applies
  1 / (1 + exp (−s)) entry by entry, the constant 1 being the float 1.0. Read at an index (n, m), operation by
  operation, this is the score of row n of x against row m of y, written in the same order and grouping of the sums; the
  only thing to compute is that the bit pattern of 1.0 denotes the number 1.
-/
import proofs.«154013_j77275051589764_1_alg».proof.Proof.Gen.ReferenceIdeal.Read
import proofs.«154013_j77275051589764_1_alg».proof.Proof.Score

noncomputable section

namespace Cert.ReferenceIdeal.RefValue

open Cert.ReferenceIdeal Cert.ReferenceIdeal.Read Idealize.ShloMosaic Idealize.ShloMosaic.ValueIdx

/-- The float 1.0 is the number 1. -/
theorem one_f32 : Ideal.ofBits .f32 0x3F800000#32 = 1 := by
  simp [Ideal.ofBits, Ideal.ieee, -EReal.coe_mul]; norm_num

/-- The reference's result is the array of scores of x, y and W. -/
theorem result_eq (x y : (⟨S16384x128, .f32⟩ : BufTy).Contents (Elt Ideal)) (W : (⟨S128x128, .f32⟩ : BufTy).Contents (Elt Ideal)) :
    val_main_v8 (F := Ideal) x y W = Cert.Bilinear.score x y W := by
  funext i
  obtain ⟨p, q, rfl⟩ : ∃ (p : Fin 16384) (q : Fin 16384), i = ix2 p q := ⟨i 0, i 1, eq_ix2 i⟩
  rw [val_main_v8_apply, val_main_v7_apply, val_main_cst_0_apply, val_main_v6_apply, val_main_v5_apply, val_main_cst_apply,
    val_main_v4_apply, val_main_v3_apply, val_main_v2_apply]
  have e1 : ∀ k : Fin 128, lidx_main_v2 (ix2 p q) k = ix2 p k := fun k => funext fun a => Fin.ext (by
    match a with | ⟨0, _⟩ => rfl | ⟨1, _⟩ => rfl)
  have e2 : ∀ k : Fin 128, ridx_main_v2 (ix2 p q) k = ix2 q k := fun k => funext fun a => Fin.ext (by
    match a with | ⟨0, _⟩ => rfl | ⟨1, _⟩ => rfl)
  have e3 : ∀ k k' : Fin 128, lidx_main_v1 (ix2 p k) k' = ix2 p k' := fun k k' => funext fun a => Fin.ext (by
    match a with | ⟨0, _⟩ => rfl | ⟨1, _⟩ => rfl)
  have e4 : ∀ k k' : Fin 128, idx_main_v0 (ridx_main_v1 (ix2 p k) k') = ix2 k k' := fun k k' => funext fun a => Fin.ext (by
    match a with | ⟨0, _⟩ => rfl | ⟨1, _⟩ => rfl)
  simp only [e1, e2, val_main_v1_apply, e3, val_main_v0_apply, e4, Ideal.ofBits_def, one_f32]
  rfl

end Cert.ReferenceIdeal.RefValue

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.BlockScore.lean ====
/-
  What the kernel body computes from its three blocks.

  At a grid point the body holds a block xb of 1024 rows of x, a block yb of 1024 rows of y, and all of W. It
  transposes W, multiplies xb by it into a zero accumulator (entry (p, d) of the product is Σ_e xb[p, e] · W[d, e]),
  changes the float format of the product and of yb (the identity on extended reals), contracts the two along the
  feature axis into a zero accumulator (entry (p, q) is Σ_d (Σ_e xb[p, e] · W[d, e]) · yb[q, d]) and applies the
  logistic function entry by entry. So its entry (p, q) is the score of row p of xb against row q of yb, in the
  specification's own order and grouping of the sums.
-/
import proofs.«154013_j77275051589764_1_alg».proof.Proof.Gen.KernelIdeal.Skeleton
import Idealize.ShloMosaic.Lib.Pipeline.Value
import proofs.«154013_j77275051589764_1_alg».proof.Proof.LibPlainDot
import proofs.«154013_j77275051589764_1_alg».proof.Proof.LibRowsDot
import proofs.«154013_j77275051589764_1_alg».proof.Proof.Score

noncomputable section

namespace Cert.KernelIdeal.BlockValue

open Cert.KernelIdeal Cert.KernelIdeal.Gen Idealize.ShloMosaic Idealize.ShloMosaic.ValueIdx

/-- The dimensions of the projection: axis 1 of the x block against axis 0 of the transposed W. -/
abbrev projDims := dot_S1024x128_S128x128_S1024x128_1_0_0_1_n_n
/-- The dimensions of the pairing: axis 1 of the projected block against axis 1 of the y block. -/
abbrev pairDims := dot_S1024x128_S1024x128_S1024x1024_1_1_0_0_n_n

/-! ## The operand indices the two contractions name -/

theorem proj_l0 (i : S1024x128.Idx) (q : projDims.contr.Idx) : (projDims.lhsIdx i q 0).val = (i 0).val := by
  unfold DotDims.lhsIdx
  rw [dif_neg (show ¬(0 : Fin S1024x128.rank) ∈ projDims.lhsBatch by decide), dif_pos (show (0 : Fin S1024x128.rank) ∈ projDims.lhsNonContracting by decide)]
  rfl
theorem proj_l1 (i : S1024x128.Idx) (q : projDims.contr.Idx) : (projDims.lhsIdx i q 1).val = (q ⟨0, by decide⟩).val :=
  projDims.lhsIdx_val_of_single rfl i q
theorem proj_r0 (i : S1024x128.Idx) (q : projDims.contr.Idx) : (projDims.rhsIdx i q 0).val = (q ⟨0, by decide⟩).val :=
  projDims.rhsIdx_val_of_single rfl i q
theorem proj_r1 (i : S1024x128.Idx) (q : projDims.contr.Idx) : (projDims.rhsIdx i q 1).val = (i 1).val := by
  unfold DotDims.rhsIdx
  rw [dif_neg (show ¬(1 : Fin S128x128.rank) ∈ projDims.rhsBatch by decide), dif_pos (show (1 : Fin S128x128.rank) ∈ projDims.rhsNonContracting by decide)]
  rfl

theorem pair_l0 (i : S1024x1024.Idx) (q : pairDims.contr.Idx) : (pairDims.lhsIdx i q 0).val = (i 0).val := by
  unfold DotDims.lhsIdx
  rw [dif_neg (show ¬(0 : Fin S1024x128.rank) ∈ pairDims.lhsBatch by decide), dif_pos (show (0 : Fin S1024x128.rank) ∈ pairDims.lhsNonContracting by decide)]
  rfl
theorem pair_l1 (i : S1024x1024.Idx) (q : pairDims.contr.Idx) : (pairDims.lhsIdx i q 1).val = (q ⟨0, by decide⟩).val :=
  pairDims.lhsIdx_val_of_single rfl i q
theorem pair_r0 (i : S1024x1024.Idx) (q : pairDims.contr.Idx) : (pairDims.rhsIdx i q 0).val = (i 1).val := by
  unfold DotDims.rhsIdx
  rw [dif_neg (show ¬(0 : Fin S1024x128.rank) ∈ pairDims.rhsBatch by decide), dif_pos (show (0 : Fin S1024x128.rank) ∈ pairDims.rhsNonContracting by decide)]
  rfl
theorem pair_r1 (i : S1024x1024.Idx) (q : pairDims.contr.Idx) : (pairDims.rhsIdx i q 1).val = (q ⟨0, by decide⟩).val :=
  pairDims.rhsIdx_val_of_single rfl i q

/-! ## The body's result at an index -/

/-- Entry (p, q) of what the body stores is the score of row p of its x block against row q of its y block. -/
theorem payload_apply (xb : FVec Ideal S1024x128 .f32) (wb : FVec Ideal S128x128 .f32) (yb : FVec Ideal S1024x128 .f32)
    (p q : Fin 1024) : k0_pay1 (F := Ideal) xb wb yb (ix2 p q) = Cert.Bilinear.scoreAt xb yb wb p q := by
  unfold k0_pay1 Cert.Bilinear.scoreAt
  refine congrArg Ideal.logistic ?_
  refine (Cert.Lib.RowsDot.matmul_zero_apply pairDims rfl rfl pair_l0 pair_l1 pair_r0 pair_r1 none _ _ p q).trans
    (Finset.sum_congr rfl fun d _ => ?_)
  refine congrArg (· * yb (ix2 q d)) ?_
  refine (Cert.Lib.PlainDot.matmul_zero_apply projDims rfl rfl proj_l0 proj_l1 proj_r0 proj_r1 none xb _ p d).trans
    (Finset.sum_congr rfl fun e _ => ?_)
  exact congrArg (xb (ix2 p e) * ·) (transpose_apply [1, 0] wb transposes_S128x128_p1_0_S128x128 (ix2 e d) (ix2 d e)
    (fun b => match b with | ⟨0, _⟩ => rfl | ⟨1, _⟩ => rfl))

end Cert.KernelIdeal.BlockValue

end
-- ==== Proof.ScoreArray.lean ====
/-
  From the blocks the grid points write to the whole array of scores.

  The grid is 16 × 16. Point (i, j) holds rows 1024 i … 1024 i + 1023 of x, rows 1024 j … 1024 j + 1023 of y and all of
  W, and writes the 1024 × 1024 block (i, j) of the result. Entry (p, q) of what it writes is the score of row p of its
  x block against row q of its y block, that is, of row 1024 i + p of x against row 1024 j + q of y: entry
  (1024 i + p, 1024 j + q) of the array of all scores. The 256 blocks tile the result, so after the run the result
  array is the array of all scores.
-/
import proofs.«154013_j77275051589764_1_alg».proof.Proof.Gen.KernelIdeal.Value
import proofs.«154013_j77275051589764_1_alg».proof.Proof.BlockScore

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The block each window holds at grid point `t`, decided over the 256 points: the x window is on the block row the
    result's block is on, the y window on the block row numbered as the result's block column, the W window on its
    one block; and the result's block (row, column) at point `t` is (t / 16, t mod 16). -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = t.val % 16 :=
  (by decide +kernel : ∀ t : Fin grid0.N, _)

/-- The array of all scores of the three argument arrays as launched. -/
abbrev scores (c : Dev nD) : Buf (Elt Ideal) ((c : Thread nD τ).loc main_v0) :=
  Cert.Bilinear.score (a := 16384) (b := 16384) (m ((c : Thread nD τ).loc main_arg0)) (m ((c : Thread nD τ).loc main_arg1))
    (m ((c : Thread nD τ).loc main_arg2))

/-! ## The three input blocks as entries of the argument arrays

An element of a window's block at point `t` sits in the window's array, on each axis, at the block index times the
block's extent plus its own coordinate. -/

/-- Entry (p, e) of the x block at point `t` is the entry of x the window's block indices place it at. -/
theorem xblk_apply (c : Dev nD) (t : Fin cfg0.N) (p : Fin 1024) (e : Fin 128) (k : S16384x128.Idx)
    (hk0 : (k 0).val = win0_0.index t 0 * 1024 + p.val) (hk1 : (k 1).val = win0_0.index t 1 * 128 + e.val) :
    (iblk m c 0 t : Vec Ideal S1024x128 .f32) (ix2 p e) = (m ((c : Thread nD τ).loc main_arg0) : S16384x128.Idx → EReal) k := by
  unfold iblk
  rw [View.read_apply]
  show V m c main_arg0 _ = m (c.tc.loc main_arg0) _
  unfold V
  congr 1
  funext a
  apply Fin.ext
  match a with
  | ⟨0, _⟩ => show win0_0.index t 0 * 1024 + 1 * p.val = (k 0).val; omega
  | ⟨1, _⟩ => show win0_0.index t 1 * 128 + 1 * e.val = (k 1).val; omega

/-- Entry (q, d) of the y block at point `t` is the entry of y the window's block indices place it at. -/
theorem yblk_apply (c : Dev nD) (t : Fin cfg0.N) (q : Fin 1024) (d : Fin 128) (k : S16384x128.Idx)
    (hk0 : (k 0).val = win0_1.index t 0 * 1024 + q.val) (hk1 : (k 1).val = win0_1.index t 1 * 128 + d.val) :
    (iblk m c 1 t : Vec Ideal S1024x128 .f32) (ix2 q d) = (m ((c : Thread nD τ).loc main_arg1) : S16384x128.Idx → EReal) k := by
  unfold iblk
  rw [View.read_apply]
  show V m c main_arg1 _ = m (c.tc.loc main_arg1) _
  unfold V
  congr 1
  funext a
  apply Fin.ext
  match a with
  | ⟨0, _⟩ => show win0_1.index t 0 * 1024 + 1 * q.val = (k 0).val; omega
  | ⟨1, _⟩ => show win0_1.index t 1 * 128 + 1 * d.val = (k 1).val; omega

/-- Entry (d, e) of the W block at point `t` is the entry of W the window's block indices place it at. -/
theorem wblk_apply (c : Dev nD) (t : Fin cfg0.N) (d e : Fin 128) (k : S128x128.Idx)
    (hk0 : (k 0).val = win0_2.index t 0 * 128 + d.val) (hk1 : (k 1).val = win0_2.index t 1 * 128 + e.val) :
    (iblk m c 2 t : Vec Ideal S128x128 .f32) (ix2 d e) = (m ((c : Thread nD τ).loc main_arg2) : S128x128.Idx → EReal) k := by
  unfold iblk
  rw [View.read_apply]
  show V m c main_arg2 _ = m (c.tc.loc main_arg2) _
  unfold V
  congr 1
  funext a
  apply Fin.ext
  match a with
  | ⟨0, _⟩ => show win0_2.index t 0 * 128 + 1 * d.val = (k 0).val; omega
  | ⟨1, _⟩ => show win0_2.index t 1 * 128 + 1 * e.val = (k 1).val; omega

/-! ## Each point's block, and the whole array -/

/-- What grid point `t` writes back is block `t` of the array of all scores. -/
theorem flushed_eq (c : Dev nD) (t : Fin cfg0.N) :
    (dats m 0 c).flushed 3 t = ((cfg0.win 3).blk t).view.read (Elt Ideal) (scores m c) := by
  rw [flushed3]
  unfold out0_3
  rw [View.canon_unit_zero hz]
  simp only [View.ld_unit_zero (S := S1024x128) hz, View.ld_unit_zero (S := S128x128) hz]
  obtain ⟨e0, e1, e2, e3, e4, e5, -, -⟩ := block_indices t
  funext j
  obtain ⟨p, q, rfl⟩ : ∃ (p q : Fin 1024), j = ix2 p q := ⟨j 0, j 1, eq_ix2 j⟩
  show k0_pay1 (F := Ideal) (iblk m c 0 t) (iblk m c 2 t) (iblk m c 1 t) (ix2 p q)
    = scores m c (((cfg0.win 3).blk t).view.emb (ix2 p q))
  refine (BlockValue.payload_apply (iblk m c 0 t) (iblk m c 2 t) (iblk m c 1 t) p q).trans ?_
  show Cert.Bilinear.scoreAt _ _ _ p q = Cert.Bilinear.scoreAt (a := 16384) (b := 16384) _ _ _
    ((((cfg0.win 3).blk t).view.emb (ix2 p q)) 0) ((((cfg0.win 3).blk t).view.emb (ix2 p q)) 1)
  refine Cert.Bilinear.scoreAt_rows _ _ _ _ _ _ p q _ _ (fun e => ?_) (fun d => ?_) (fun d e => ?_)
  · refine xblk_apply m c t p e _ ?_ ?_
    · show win0_3.index t 0 * 1024 + 1 * p.val = win0_0.index t 0 * 1024 + p.val; omega
    · show e.val = win0_0.index t 1 * 128 + e.val; omega
  · refine yblk_apply m c t q d _ ?_ ?_
    · show win0_3.index t 1 * 1024 + 1 * q.val = win0_1.index t 0 * 1024 + q.val; omega
    · show d.val = win0_1.index t 1 * 128 + d.val; omega
  · refine wblk_apply m c t d e _ ?_ ?_
    · show d.val = win0_2.index t 0 * 128 + d.val; omega
    · show e.val = win0_2.index t 1 * 128 + e.val; omega

/-- An index of the result is in point `t`'s block iff each coordinate is in the block's range on its axis. -/
theorem mem_blk (t : Fin cfg0.N) (i : S16384x16384.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- The blocks tile the result: entry (r, s) is in the block of the point numbered 16 (r / 1024) + s / 1024. -/
theorem covered (i : S16384x16384.Idx) :
    ∃ t : Fin cfg0.N, (cfg0.win 3).flush t = true ∧ i ∈ ((cfg0.win 3).blk t).view.set := by
  have hi0 : (i 0).val < 16384 := (i 0).isLt
  have hi1 : (i 1).val < 16384 := (i 1).isLt
  have hN : cfg0.N = 256 := N_0
  let t : Fin cfg0.N := ⟨(i 0).val / 1024 * 16 + (i 1).val / 1024, by rw [hN]; omega⟩
  obtain ⟨-, -, -, -, -, -, r0, r1⟩ := block_indices t
  have ht : t.val = (i 0).val / 1024 * 16 + (i 1).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the run the result array is the array of all scores. -/
theorem final (c : Dev nD) : (dats m 0 c).arrAt 3 cfg0.N = scores m c :=
  (dats m 0 c).arrAt_eq_of_cover 3 (scores m c) (fun t _ => flushed_eq m c t) covered

/-- The run, read: every weakly fair execution ends with the result array at the array of all scores of the argument
    arrays, and the arguments unchanged. -/
theorem run : θ_run defs (onTc (τ := τ) (main (F := Ideal))) ⟨m, fun _ => 0, ρ⟩ fun r => ∀ c : Dev nD,
      r.2.mem ((c : Thread nD τ).loc main_v0) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  A bilinear discriminator: for x and y of shape [16384, 128] and W of shape [128, 128], the array [16384, 16384] whose
  entry (n, m) is the logistic function of the bilinear form of row n of x and row m of y through W,

      σ( Σ_d ( Σ_e x[n, e] · W[d, e] ) · y[m, d] ),     σ s = 1 / (1 + exp (−s)).

  The kernel computes it tile by tile on a 16 × 16 grid: point (i, j) takes 1024 rows of x through the transpose of W,
  contracts the result with 1024 rows of y, applies the logistic function and writes the 1024 × 1024 tile (i, j). The
  reference computes the two matrix products on the whole arrays and spells the logistic function as
  1 / (1 + exp (−s)). Over the extended reals, where a change of float format is the identity and a matrix product
  accumulated into zero is the plain sum, the two are the same function of x, y and W, entry by entry, with the sums in
  the same order and grouping: no law of arithmetic is used beyond 0 + s = s and that the float 1.0 is 1, so the
  finiteness of the inputs is never opened.

  The modules: Score (the function itself, and that entry (n, m) reads only row n of x and row m of y), RefScore (the
  reference's result is that function), BlockScore (a tile of the kernel is that function of the tile's rows),
  ScoreArray (the tiles cover the result, so the kernel's result is that function), LibPlainDot and LibRowsDot (a
  matrix product, plain or against a transposed right operand, read at an index as a sum). Here the five claims are put
  together: the three programs run to the end and leave their arguments as they were; the kernel over the extended reals is
  the kernel's own text read there (nothing was rewritten); and over the extended reals the kernel and the reference end
  with equal results.
-/
import proofs.«154013_j77275051589764_1_alg».proof.Defs
import proofs.«154013_j77275051589764_1_alg».proof.Proof.Gen.Kernel
import proofs.«154013_j77275051589764_1_alg».proof.Proof.Gen.Kernel.Skeleton
import proofs.«154013_j77275051589764_1_alg».proof.Proof.Gen.Kernel.Launch
import proofs.«154013_j77275051589764_1_alg».proof.Proof.Gen.Kernel.Points
import proofs.«154013_j77275051589764_1_alg».proof.Proof.Gen.Kernel.Frame
import proofs.«154013_j77275051589764_1_alg».proof.Proof.Gen.KernelIdeal
import proofs.«154013_j77275051589764_1_alg».proof.Proof.Gen.KernelIdeal.Skeleton
import proofs.«154013_j77275051589764_1_alg».proof.Proof.Gen.KernelIdeal.Launch
import proofs.«154013_j77275051589764_1_alg».proof.Proof.Gen.KernelIdeal.Points
import proofs.«154013_j77275051589764_1_alg».proof.Proof.Gen.KernelIdeal.Frame
import proofs.«154013_j77275051589764_1_alg».proof.Proof.Gen.ReferenceIdeal
import proofs.«154013_j77275051589764_1_alg».proof.Proof.Gen.Pre_finite_inputs
import proofs.«154013_j77275051589764_1_alg».proof.Proof.Gen.KernelIdeal.Value
import proofs.«154013_j77275051589764_1_alg».proof.Proof.Gen.ReferenceIdeal.Run
import proofs.«154013_j77275051589764_1_alg».proof.Proof.Gen.ReferenceIdeal.Read
import proofs.«154013_j77275051589764_1_alg».proof.Proof.RefScore
import proofs.«154013_j77275051589764_1_alg».proof.Proof.ScoreArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs, from memories that agree on x, y and W, end with the array of all scores of x, y and W:
    the kernel because its tiles are that array's tiles and cover it, the reference because its operations, read at an
    index, spell the score. -/
theorem algebraic : Cert.algebraic_KernelIdeal_ReferenceIdeal := by
  intro m ρ m' ρ' _ hagree
  refine ⟨fun c => Cert.KernelIdeal.ArrayValue.scores m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
